-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S500000 : Shape := ⟨1, ![500000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S500000 32) (main_arg2 : IVec S500000 32) (main_arg3 : FVec F S512x512 .f32) (main_arg4 : FVec F S512 .f32) (main_arg5 : FVec F S1x512 .f32) (main_arg6 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x512 .f32 := Host.absf main_arg5
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg6 main_v13 main_v16
-- ==== Kernel.lean ====
abbrev S100000x256 : Shape := ⟨2, ![100000, 256]⟩
abbrev S500000 : Shape := ⟨1, ![500000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩
abbrev S500000x1 : Shape := ⟨2, ![500000, 1]⟩
abbrev S500000x256 : Shape := ⟨2, ![500000, 256]⟩
abbrev S512x256 : Shape := ⟨2, ![512, 256]⟩
abbrev S256x512 : Shape := ⟨2, ![256, 512]⟩
abbrev S1x1 : Shape := ⟨2, ![1, 1]⟩
abbrev S125x1x4000 : Shape := ⟨3, ![125, 1, 4000]⟩
abbrev S4000x256 : Shape := ⟨2, ![4000, 256]⟩
abbrev S1x1x4000 : Shape := ⟨3, ![1, 1, 4000]⟩
abbrev S4000x512 : Shape := ⟨2, ![4000, 512]⟩
abbrev S1x4000 : Shape := ⟨2, ![1, 4000]⟩

abbrev nBuf : Space → Nat
  | .hbm => 37
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S500000, .i32⟩
  | .hbm, ⟨2, _⟩ => ⟨S500000, .i32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S100000x256, .bf16⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S500000x256, .bf16⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x256, .bf16⟩
  | .hbm, ⟨26, _⟩ => ⟨S512x256, .f32⟩
  | .hbm, ⟨27, _⟩ => ⟨S512x256, .f32⟩
  | .hbm, ⟨28, _⟩ => ⟨S512x256, .bf16⟩
  | .hbm, ⟨29, _⟩ => ⟨S256x512, .bf16⟩
  | .hbm, ⟨30, _⟩ => ⟨S512x256, .bf16⟩
  | .hbm, ⟨31, _⟩ => ⟨S256x512, .bf16⟩
  | .hbm, ⟨32, _⟩ => ⟨S1x512, .bf16⟩
  | .hbm, ⟨33, _⟩ => ⟨S1x512, .f32⟩
  | .hbm, ⟨34, _⟩ => ⟨S1x1, .f32⟩
  | .hbm, ⟨35, _⟩ => ⟨S125x1x4000, .f32⟩
  | .hbm, ⟨36, _⟩ => ⟨S500000, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S256x512, .bf16⟩
  | .local _ .vmem, ⟨5, _⟩ => ⟨S256x512, .bf16⟩
  | .local _ .vmem, ⟨6, _⟩ => ⟨S1x512, .f32⟩
  | .local _ .vmem, ⟨7, _⟩ => ⟨S1x512, .bf16⟩
  | .local _ .vmem, ⟨8, _⟩ => ⟨S1x1, .f32⟩
  | .local _ .vmem, ⟨9, _⟩ => ⟨S1x1x4000, .f32⟩
  | .local _ .vmem, ⟨10, _⟩ => ⟨S1x1x4000, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x4000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  slices_S512x512_S512x256_0_0 : S512x512.Slices ![0, 0] S512x256
  slices_S512x512_S512x256_0_256 : S512x512.Slices ![0, 256] S512x256
  transposes_S512x256_S256x512_1_0 : S512x256.Transposes [1, 0] S256x512
  shapeCasts_S512_S1x512 : S512.ShapeCasts S1x512
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4000 : S1x1.Broadcasts S1x4000
  shapeCasts_S1x4000_S1x1x4000 : S1x4000.ShapeCasts S1x1x4000
  inb_S1x1x4000_S1x1x4000_0_0_0 : ∀ a, (![0, 0, 0] : Fin 3 → Nat) a + S1x1x4000.size a ≤ S1x1x4000.size a
  h_S1x1x4000 : 0 < S1x1x4000.numel
  shapeCasts_S125x1x4000_S500000 : S125x1x4000.ShapeCasts S500000
  gather_S100000x256_S500000x1_S500000x256_1_0_n_n_0_1_1256_wf : GatherDims.WF S100000x256 S500000x1 S500000x256 [1] [0] [] [0] [] 1 ![1, 256]
  dot_S4000x256_S256x512_S4000x512_1_0_0_1_n_n_wf : DotDims.WF S4000x256 S256x512 S4000x512 [1] [0] [0] [1] [] []
  dot_S1x512_S4000x512_S1x4000_1_1_0_0_n_n_wf : DotDims.WF S1x512 S4000x512 S1x4000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S500000x256.size a
  hwx0_0 : ∀ i : grid0.Coords, EltTy.bits .bf16 = 32 ∨ (Rect.block (s := S500000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S500000x256.size a
  hwx0_1 : ∀ i : grid0.Coords, EltTy.bits .bf16 = 32 ∨ (Rect.block (s := S500000x256) S4000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .bf16 = 32 ∨ (Rect.block (s := S1x512) S1x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x4000.size a ≤ S125x1x4000.size a
  hwx0_7 : ∀ i : grid0.Coords, EltTy.bits .f32 = 32 ∨ (Rect.block (s := S125x1x4000) S1x1x4000.size (cc0_transform_7 i) (hinb0_7 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf
def dot_S1x512_S4000x512_S1x4000_1_1_0_0_n_n : DotDims S1x512 S4000x512 S1x4000 where
  lhsContracting := [1]
  rhsContracting := [1]
  lhsNonContracting := [0]
  rhsNonContracting := [0]
  lhsBatch := []
  rhsBatch := []
  wf := dot_S1x512_S4000x512_S1x4000_1_1_0_0_n_n_wf

abbrev win0_0 : Pipeline.Window sig grid0 :=
  Pipeline.Window.ofSpec (Memref.whole main_v7) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x1x4000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S500000 : Shape := ⟨1, ![500000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩
abbrev S500000x1 : Shape := ⟨2, ![500000, 1]⟩
abbrev S500000x256 : Shape := ⟨2, ![500000, 256]⟩
abbrev S500000x512 : Shape := ⟨2, ![500000, 512]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S500000, .i32⟩
  | .hbm, ⟨2, _⟩ => ⟨S500000, .i32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S_, .i32⟩
  | .hbm, ⟨8, _⟩ => ⟨S500000, .i32⟩
  | .hbm, ⟨9, _⟩ => ⟨S500000, .i1⟩
  | .hbm, ⟨10, _⟩ => ⟨S_, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000x1, .i32⟩
  | .hbm, ⟨15, _⟩ => ⟨S500000x256, .f32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x256, .f32⟩
  | .hbm, ⟨25, _⟩ => ⟨S500000x512, .f32⟩
  | .hbm, ⟨26, _⟩ => ⟨S500000x512, .f32⟩
  | .hbm, ⟨27, _⟩ => ⟨S1x512, .f32⟩
  | .hbm, ⟨28, _⟩ => ⟨S500000x512, .f32⟩
  | .hbm, ⟨29, _⟩ => ⟨S500000x512, .f32⟩
  | .hbm, ⟨30, _⟩ => ⟨S_, .f32⟩
  | .hbm, ⟨31, _⟩ => ⟨S500000x512, .f32⟩
  | .hbm, ⟨32, _⟩ => ⟨S500000x512, .f32⟩
  | .hbm, ⟨33, _⟩ => ⟨S500000x1, .f32⟩
  | .hbm, ⟨34, _⟩ => ⟨S1x1, .f32⟩
  | .hbm, ⟨35, _⟩ => ⟨S500000x1, .f32⟩
  | .hbm, ⟨36, _⟩ => ⟨S500000x1, .f32⟩
  | .hbm, ⟨37, _⟩ => ⟨S500000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x512_d1 : Shape.Concatenates [S500000x256, S500000x256] S500000x512 1
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x256_S500000x1_S500000x256_1_0_n_n_0_1_1256_wf : GatherDims.WF S100000x256 S500000x1 S500000x256 [1] [0] [] [0] [] 1 ![1, 256]
  dot_S500000x512_S512x512_S500000x512_1_1_0_0_n_n_wf : DotDims.WF S500000x512 S512x512 S500000x512 [1] [1] [0] [0] [] []
  dot_S500000x512_S1x512_S500000x1_1_1_0_0_n_n_wf : DotDims.WF S500000x512 S1x512 S500000x1 [1] [1] [0] [0] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x512_S512x512_S500000x512_1_1_0_0_n_n : DotDims S500000x512 S512x512 S500000x512 where
  lhsContracting := [1]
  rhsContracting := [1]
  lhsNonContracting := [0]
  rhsNonContracting := [0]
  lhsBatch := []
  rhsBatch := []
  wf := dot_S500000x512_S512x512_S500000x512_1_1_0_0_n_n_wf
def dot_S500000x512_S1x512_S500000x1_1_1_0_0_n_n : DotDims S500000x512 S1x512 S500000x1 where
  lhsContracting := [1]
  rhsContracting := [1]
  lhsNonContracting := [0]
  rhsNonContracting := [0]
  lhsBatch := []
  rhsBatch := []
  wf := dot_S500000x512_S1x512_S500000x1_1_1_0_0_n_n_wf

class Facts : Prop extends Facts₀ where

variable [Facts]
-- ==== Proof.EdgeScore.lean ====
/-
  THE SCORE OF AN EDGE, ON THE EXTENDED REALS.

  An edge joins two nodes whose feature rows are `u` and `v` (256 entries each). A two-layer perceptron scores it:
  the hidden unit `j` is  max (⟨u ‖ v, W1 j⟩ + b1 j, 0)  — the inner product of the concatenated row `u ‖ v` (512
  entries) with row `j` of the first weight matrix —, and the score is  ∑ j, W2 j · hidden j + b2.

  The inner product with the concatenated row splits into the part over the first 256 columns of `W1`, against `u`, and
  the part over the last 256, against `v`: a finite sum over 512 indices is the sum over the lower half plus the sum
  over the upper half. That holds in any commutative monoid, so on the extended reals it needs no finiteness. The
  specification below is written in the split form; `score_of_joined` says the joined form is the same number.
-/
import Idealize.ShloMosaic.Lib.ValueIdx

noncomputable section

open scoped BigOperators

namespace EdgeScore

open Idealize.ShloMosaic Idealize.ShloMosaic.ValueIdx

/-- Column `k` of the lower half of a 512-wide row. -/
def lo (k : Fin 256) : Fin 512 := ⟨k.val, by omega⟩
/-- Column `k` of the upper half of a 512-wide row. -/
def hi (k : Fin 256) : Fin 512 := ⟨256 + k.val, by omega⟩

@[simp] theorem lo_val (k : Fin 256) : (lo k).val = k.val := rfl
@[simp] theorem hi_val (k : Fin 256) : (hi k).val = 256 + k.val := rfl

/-- A sum over 512 indices is the sum over the lower 256 plus the sum over the upper 256. -/
theorem sum_halves {M : Type*} [AddCommMonoid M] (f : Fin 512 → M) :
    ∑ d : Fin 512, f d = ∑ k : Fin 256, f (lo k) + ∑ k : Fin 256, f (hi k) :=
  Fin.sum_univ_add (a := 256) (b := 256) f

/-- The weights: a 512 × 512 matrix and a 512-vector for the hidden layer, a 1 × 512 matrix and a 1-vector for the score. -/
abbrev Mat512 := (⟨2, ![512, 512]⟩ : Shape).Idx → EReal
abbrev Vec512 := (⟨1, ![512]⟩ : Shape).Idx → EReal
abbrev Row512 := (⟨2, ![1, 512]⟩ : Shape).Idx → EReal
abbrev Vec1 := (⟨1, ![1]⟩ : Shape).Idx → EReal

/-- Hidden unit `j` of the edge with endpoint rows `u`, `v`: the two half inner products, the bias, the positive part. -/
def hidden (W1 : Mat512) (b1 : Vec512) (u v : Fin 256 → EReal) (j : Fin 512) : EReal :=
  max ((∑ k : Fin 256, u k * W1 (ix2 j (lo k)) + ∑ k : Fin 256, v k * W1 (ix2 j (hi k))) + b1 (ix1 j)) 0

/-- The edge's score. -/
def score (W1 : Mat512) (b1 : Vec512) (W2 : Row512) (b2 : Vec1) (u v : Fin 256 → EReal) : EReal :=
  (∑ j : Fin 512, W2 (ix2 (0 : Fin 1) j) * hidden W1 b1 u v j) + b2 (ix1 (0 : Fin 1))

/-- The scores of 500000 edges whose source rows are the rows of `Hs` and destination rows the rows of `Hd`. -/
def scores (Hs Hd : (⟨2, ![500000, 256]⟩ : Shape).Idx → EReal) (W1 : Mat512) (b1 : Vec512) (W2 : Row512) (b2 : Vec1) :
    (⟨1, ![500000]⟩ : Shape).Idx → EReal :=
  fun i => score W1 b1 W2 b2 (fun k => Hs (ix2 (i 0) k)) (fun k => Hd (ix2 (i 0) k))

theorem scores_apply (Hs Hd : (⟨2, ![500000, 256]⟩ : Shape).Idx → EReal) (W1 : Mat512) (b1 : Vec512) (W2 : Row512) (b2 : Vec1)
    (e : Fin 500000) :
    scores Hs Hd W1 b1 W2 b2 (ix1 e) = score W1 b1 W2 b2 (fun k => Hs (ix2 e k)) (fun k => Hd (ix2 e k)) := rfl

/-- THE JOINED FORM. With the two rows joined into one row `w` of 512 entries (`u` below, `v` above), the hidden
    unit taken as one inner product over 512 columns and each product of the second layer written the other way
    round, the number is the same: split the sum over the columns in halves, commute the product. -/
theorem score_of_joined (W1 : Mat512) (b1 : Vec512) (W2 : Row512) (b2 : Vec1) (u v : Fin 256 → EReal) (w : Fin 512 → EReal)
    (hlo : ∀ k, w (lo k) = u k) (hhi : ∀ k, w (hi k) = v k) :
    (∑ j : Fin 512, max ((∑ d : Fin 512, w d * W1 (ix2 j d)) + b1 (ix1 j)) 0 * W2 (ix2 (0 : Fin 1) j)) + b2 (ix1 (0 : Fin 1))
      = score W1 b1 W2 b2 u v := by
  unfold score hidden
  refine congrArg (· + b2 (ix1 (0 : Fin 1))) (Finset.sum_congr rfl fun j _ => ?_)
  rw [mul_comm, sum_halves fun d => w d * W1 (ix2 j d)]
  simp only [hlo, hhi]

end EdgeScore

end
-- ==== Proof.RefScore.lean ====
/-
  THE REFERENCE COMPUTES THE EDGE SCORES.

  The reference gathers the source and destination rows, joins them side by side into rows of 512 entries, takes the
  inner products with the rows of the first weight matrix, adds the bias, keeps the positive part, takes the inner
  product with the second weight row and adds its bias. Read one operation at a time at an index, that is the joined
  form of the score (EdgeScore.score_of_joined): entry `lo k` of the joined row is the source row's entry `k`, entry
  `hi k` the destination row's. The two gathered arrays are left as they are: they are the same on both sides.
-/
import proofs.«129679_j84121229460231_2_alg».proof.Proof.Gen.ReferenceIdeal.Read
import proofs.«129679_j84121229460231_2_alg».proof.Proof.EdgeScore

noncomputable section

open scoped BigOperators

namespace Cert.ReferenceIdeal.EdgeRead

open Cert.ReferenceIdeal Cert.ReferenceIdeal.Read Idealize.ShloMosaic Idealize.ShloMosaic.ValueIdx EdgeScore

variable (x0 : (⟨S100000x256, .f32⟩ : BufTy).Contents (Elt Ideal)) (x1 x2 : (⟨S500000, .i32⟩ : BufTy).Contents (Elt Ideal))
  (x3 : (⟨S512x512, .f32⟩ : BufTy).Contents (Elt Ideal)) (x4 : (⟨S512, .f32⟩ : BufTy).Contents (Elt Ideal))
  (x5 : (⟨S1x512, .f32⟩ : BufTy).Contents (Elt Ideal)) (x6 : (⟨S1, .f32⟩ : BufTy).Contents (Elt Ideal))

/-- The joined row of edge `e`: its lower half is the gathered source row. -/
theorem joined_lo (e : Fin 500000) (k : Fin 256) :
    val_main_v14 (F := Ideal) x0 x1 x2 (ix2 e (lo k)) = val_main_v6 (F := Ideal) x0 x1 (ix2 e k) := by
  unfold val_main_v14
  refine concatenate_pair_apply_left (s₁ := S500000x256) (s₂ := S500000x256) (t := S500000x512) (1 : Fin 2) _ _ _ (ix2 e (lo k)) rfl (ix2 e k)
    fun b => ?_
  match b with
  | ⟨0, _⟩ => rfl
  | ⟨1, _⟩ => rfl

/-- Its upper half is the gathered destination row. -/
theorem joined_hi (e : Fin 500000) (k : Fin 256) :
    val_main_v14 (F := Ideal) x0 x1 x2 (ix2 e (hi k)) = val_main_v13 (F := Ideal) x0 x2 (ix2 e k) := by
  unfold val_main_v14
  refine concatenate_pair_apply_right (s₁ := S500000x256) (s₂ := S500000x256) (t := S500000x512) (1 : Fin 2) _ _ _ (ix2 e (hi k)) rfl rfl (ix2 e k)
    (fun b hb => ?_) ?_
  · match b with
    | ⟨0, _⟩ => rfl
    | ⟨1, _⟩ => exact absurd rfl hb
  · show k.val + 256 = 256 + k.val
    omega

/-- Hidden unit `j` of edge `e` as the reference computes it: one inner product over the 512 joined columns. -/
theorem hidden_apply (e : Fin 500000) (j : Fin 512) :
    val_main_v19 (F := Ideal) x0 x1 x2 x3 x4 (ix2 e j)
      = max ((∑ d : Fin 512, val_main_v14 (F := Ideal) x0 x1 x2 (ix2 e d) * x3 (ix2 j d)) + x4 (ix1 j)) 0 := by
  rw [val_main_v19_apply, val_main_v18_apply, val_main_v15_apply, val_main_v17_apply, val_main_v16_apply,
    val_main_call0_v0_apply, val_main_call0_cst_apply]
  have el : ∀ d : Fin 512, lidx_main_v15 (ix2 e j) d = ix2 e d := fun d => funext fun a => Fin.ext (by
    match a with
    | ⟨0, _⟩ => rfl
    | ⟨1, _⟩ => rfl)
  have er : ∀ d : Fin 512, ridx_main_v15 (ix2 e j) d = ix2 j d := fun d => funext fun a => Fin.ext (by
    match a with
    | ⟨0, _⟩ => rfl
    | ⟨1, _⟩ => rfl)
  have eb : idx_main_v16 (idx_main_v17 (ix2 e j)) = ix1 j := funext fun a => Fin.ext (by
    match a with
    | ⟨0, _⟩ => rfl)
  simp only [el, er, eb]
  show max (_ + _) (Ideal.ofBits .f32 0x00000000#32) = _
  rw [Ideal.ofBits_zero_f32]

/-- THE REFERENCE'S RESULT is the array of edge scores of the two gathered arrays. -/
theorem result_eq :
    val_main_v24 (F := Ideal) x0 x1 x2 x3 x4 x5 x6
      = scores (val_main_v6 (F := Ideal) x0 x1) (val_main_v13 (F := Ideal) x0 x2) x3 x4 x5 x6 := by
  funext i
  obtain ⟨e, rfl⟩ : ∃ e : Fin 500000, i = ix1 e := ⟨i 0, eq_ix1 i⟩
  rw [scores_apply, val_main_v24_apply, val_main_v23_apply, val_main_v20_apply, val_main_v22_apply, val_main_v21_apply]
  have ei : idx_main_v24 (ix1 e) = ix2 e (0 : Fin 1) := funext fun a => Fin.ext (by
    match a with
    | ⟨0, _⟩ => exact Nat.div_one _
    | ⟨1, _⟩ => rfl)
  have el : ∀ j : Fin 512, lidx_main_v20 (ix2 e (0 : Fin 1)) j = ix2 e j := fun j => funext fun a => Fin.ext (by
    match a with
    | ⟨0, _⟩ => rfl
    | ⟨1, _⟩ => rfl)
  have er : ∀ j : Fin 512, ridx_main_v20 (ix2 e (0 : Fin 1)) j = ix2 (0 : Fin 1) j := fun j => funext fun a => Fin.ext (by
    match a with
    | ⟨0, _⟩ => rfl
    | ⟨1, _⟩ => rfl)
  have eb : idx_main_v21 (idx_main_v22 (ix2 e (0 : Fin 1))) = ix1 (0 : Fin 1) := funext fun a => Fin.ext (by
    match a with
    | ⟨0, _⟩ => rfl)
  simp only [ei, el, er, eb, hidden_apply]
  exact score_of_joined x3 x4 x5 x6 _ _ (fun d => val_main_v14 (F := Ideal) x0 x1 x2 (ix2 e d))
    (fun k => joined_lo x0 x1 x2 e k) (fun k => joined_hi x0 x1 x2 e k)

end Cert.ReferenceIdeal.EdgeRead

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibRowsByRows.lean ====
/-
  A matrix product in which BOTH operands are contracted along their second axis: the [M, K] operand's row p against
  the [C, K] operand's row q, that is  A · Bᵀ. Read at the extended reals, into an accumulator of zeros, the element
  (p, q) of the result is the plain sum  ∑ k, A (p, k) * B (q, k).

  The lemma is stated for any dimension record of those shapes whose operand indices are the expected ones — four
  facts about the record (`hl0 … hr1`) that a program's literal record proves by unfolding; nothing else of the record
  is used. The one contracted axis is re-indexed by its coordinate `k : Fin K`.
-/
import Idealize.ShloMosaic.Lib.ValueIdx
import Idealize.ShloMosaic.PureOps.Ideal.Laws

noncomputable section

open scoped BigOperators

namespace RowsByRows

open Idealize.ShloMosaic Idealize.ShloMosaic.ValueIdx

/-- Element (p, q) of  A · Bᵀ  accumulated into zeros is  ∑ k, A (p, k) * B (q, k). -/
theorem matmul_zero_apply {M K C : Nat} {φ₁ φ₂ : FTy} (D : DotDims ⟨2, ![M, K]⟩ ⟨2, ![C, K]⟩ ⟨2, ![M, C]⟩)
    (hr : D.contr.rank = 1) (hs : D.contr.size ⟨0, by omega⟩ = K)
    (hl0 : ∀ (j : (⟨2, ![M, C]⟩ : Shape).Idx) (k : D.contr.Idx), (D.lhsIdx j k 0).val = (j 0).val)
    (hl1 : ∀ (j : (⟨2, ![M, C]⟩ : Shape).Idx) (k : D.contr.Idx), (D.lhsIdx j k 1).val = (k ⟨0, by omega⟩).val)
    (hr0 : ∀ (j : (⟨2, ![M, C]⟩ : Shape).Idx) (k : D.contr.Idx), (D.rhsIdx j k 0).val = (j 1).val)
    (hr1 : ∀ (j : (⟨2, ![M, C]⟩ : Shape).Idx) (k : D.contr.Idx), (D.rhsIdx j k 1).val = (k ⟨0, by omega⟩).val)
    (prec : Option ContractPrecision) (A : FVec Ideal ⟨2, ![M, K]⟩ φ₁) (B : FVec Ideal ⟨2, ![C, K]⟩ φ₂)
    (p : Fin M) (q : Fin C) :
    FloatOps.matmul D prec A B (constant ⟨2, ![M, C]⟩ .f32 0x00000000#32) (ix2 p q) = ∑ k : Fin K, A (ix2 p k) * B (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end RowsByRows

end
-- ==== Proof.BodyScore.lean ====
/-
  WHAT THE KERNEL BODY STORES, AT AN INDEX.

  At a grid point the body holds a block of 4000 source rows `x0` and the matching 4000 destination rows `x1`
  (256 columns each), the two halves of the first weight matrix already transposed (`x2`, `x3` : 256 × 512), the two
  biases as a 1 × 512 row `x4` and a 1 × 1 entry `x6`, and the second weight row `x5` (1 × 512). It stores a
  1 × 1 × 4000 block whose entry `r` is

      ∑ j, x5 (0, j) · max ((∑ k, x0 (r, k) · x2 (k, j) + ∑ k, x1 (r, k) · x3 (k, j)) + x4 (0, j), 0)  +  x6 (0, 0):

  two plain matrix products into zeros added together, the bias row spread over the 4000 rows, the positive part, then
  the product of the weight row with the hidden block, both contracted along their 512 columns, and the last bias
  spread along the row. The changes of float format and the shape casts are the identity on extended reals.
-/
import proofs.«129679_j84121229460231_2_alg».proof.Proof.Gen.KernelIdeal.Skeleton
import proofs.«129679_j84121229460231_2_alg».proof.Proof.LibMatOps
import proofs.«129679_j84121229460231_2_alg».proof.Proof.LibRowsByRows
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The product of the weight row with the hidden block: operand indices of its dimension record -/

theorem rowdot_l0 (j : S1x4000.Idx) (q : dot_S1x512_S4000x512_S1x4000_1_1_0_0_n_n.contr.Idx) : (dot_S1x512_S4000x512_S1x4000_1_1_0_0_n_n.lhsIdx j q 0).val = (j 0).val := by
  unfold DotDims.lhsIdx
  rw [dif_neg (show ¬(0 : Fin S1x512.rank) ∈ dot_S1x512_S4000x512_S1x4000_1_1_0_0_n_n.lhsBatch by decide),
    dif_pos (show (0 : Fin S1x512.rank) ∈ dot_S1x512_S4000x512_S1x4000_1_1_0_0_n_n.lhsNonContracting by decide)]
  rfl
theorem rowdot_l1 (j : S1x4000.Idx) (q : dot_S1x512_S4000x512_S1x4000_1_1_0_0_n_n.contr.Idx) : (dot_S1x512_S4000x512_S1x4000_1_1_0_0_n_n.lhsIdx j q 1).val = (q ⟨0, by decide⟩).val :=
  dot_S1x512_S4000x512_S1x4000_1_1_0_0_n_n.lhsIdx_val_of_single rfl j q
theorem rowdot_r0 (j : S1x4000.Idx) (q : dot_S1x512_S4000x512_S1x4000_1_1_0_0_n_n.contr.Idx) : (dot_S1x512_S4000x512_S1x4000_1_1_0_0_n_n.rhsIdx j q 0).val = (j 1).val := by
  unfold DotDims.rhsIdx
  rw [dif_neg (show ¬(0 : Fin S4000x512.rank) ∈ dot_S1x512_S4000x512_S1x4000_1_1_0_0_n_n.rhsBatch by decide),
    dif_pos (show (0 : Fin S4000x512.rank) ∈ dot_S1x512_S4000x512_S1x4000_1_1_0_0_n_n.rhsNonContracting by decide)]
  rfl
theorem rowdot_r1 (j : S1x4000.Idx) (q : dot_S1x512_S4000x512_S1x4000_1_1_0_0_n_n.contr.Idx) : (dot_S1x512_S4000x512_S1x4000_1_1_0_0_n_n.rhsIdx j q 1).val = (q ⟨0, by decide⟩).val :=
  dot_S1x512_S4000x512_S1x4000_1_1_0_0_n_n.rhsIdx_val_of_single rfl j q

/-- The weight row against the hidden block, both contracted along their columns, into zeros: entry `(v, r)` is the
    inner product of the row with hidden row `r`. -/
theorem rowdot_apply (w : FVec Ideal S1x512 .bf16) (hid : FVec Ideal S4000x512 .bf16) (v : Fin 1) (r : Fin 4000) :
    FloatOps.matmul dot_S1x512_S4000x512_S1x4000_1_1_0_0_n_n none w hid (constant S1x4000 .f32 0x00000000#32) (ix2 v r) = ∑ j : Fin 512, w (ix2 v j) * hid (ix2 r j) :=
  RowsByRows.matmul_zero_apply dot_S1x512_S4000x512_S1x4000_1_1_0_0_n_n rfl rfl rowdot_l0 rowdot_l1 rowdot_r0 rowdot_r1 none w hid v r

/-- A block of 4000 rows times a transposed half of the first weight matrix, into zeros: entry `(r, j)` is the inner
    product of row `r` with the half's column `j`. -/
theorem halfdot_apply (x : FVec Ideal S4000x256 .bf16) (w : FVec Ideal S256x512 .bf16) (r : Fin 4000) (j : Fin 512) :
    FloatOps.matmul dot_S4000x256_S256x512_S4000x512_1_0_0_1_n_n none x w (constant S4000x512 .f32 0x00000000#32) (ix2 r j) = ∑ k : Fin 256, x (ix2 r k) * w (ix2 k j) :=
  Cert.MatOps.matmul_plain_apply dot_S4000x256_S256x512_S4000x512_1_0_0_1_n_n.wf none x w r j

/-! ## The payload -/

/-- Entry `r` of the stored block. -/
theorem pay_apply (x0 x1 : FVec Ideal S4000x256 .bf16) (x2 x3 : FVec Ideal S256x512 .bf16) (x4 : FVec Ideal S1x512 .f32)
    (x5 : FVec Ideal S1x512 .bf16) (x6 : FVec Ideal S1x1 .f32) (u v : Fin 1) (r : Fin 4000) :
    k0_pay1 (F := Ideal) x0 x1 x2 x3 x4 x5 x6 (ix3 u v r)
      = (∑ j : Fin 512, x5 (ix2 (0 : Fin 1) j) * max ((∑ k : Fin 256, x0 (ix2 r k) * x2 (ix2 k j)
          + ∑ k : Fin 256, x1 (ix2 r k) * x3 (ix2 k j)) + x4 (ix2 (0 : Fin 1) j)) 0) + x6 (ix2 (0 : Fin 1) (0 : Fin 1)) := by
  obtain rfl : v = 0 := Subsingleton.elim v 0
  unfold k0_pay1
  simp only [shapeCast_self, matmul]
  refine (shapeCast_ab_1ab_apply _ shapeCasts_S1x4000_S1x1x4000 u (0 : Fin 1) r).trans ?_
  rw [addf_apply, rowdot_apply, Cert.MatOps.broadcastTo_a1_ab_apply]
  refine congrArg (· + x6 (ix2 (0 : Fin 1) (0 : Fin 1))) (Finset.sum_congr rfl fun j _ => ?_)
  rw [truncf_apply, maximumf_apply, addf_apply, addf_apply, halfdot_apply, halfdot_apply, broadcastTo_1b_ab_apply, broadcast_apply]
  show _ * max _ (Ideal.ofBits .f32 0x00000000#32) = _
  rw [Ideal.ofBits_zero_f32]

end Cert.KernelIdeal.Body

end
-- ==== Proof.BlockScore.lean ====
/-
  THE ARRAY THE REGION LEAVES.

  The grid has 125 points; point `t` is handed rows 4000 t … 4000 t + 3999 of the source rows and of the destination
  rows, and every other operand whole, and writes block `t` of a 125 × 1 × 4000 array. So entry `(t, 0, r)` of that array is
  what the body computes from row 4000 t + r of the two row arrays: ONE function of the seven arrays the region finds
  (`outArr`). What a point writes back is a block of that function (`flushed_eq`), the 125 blocks cover the array
  (`cover`), hence the array ends holding it (`final`).
-/
import proofs.«129679_j84121229460231_2_alg».proof.Proof.Gen.KernelIdeal.Frame
import proofs.«129679_j84121229460231_2_alg».proof.Proof.BodyScore
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-- The edge that entry `r` of block `t` scores. -/
def edgeOf (t : Fin 125) (r : Fin 4000) : Fin 500000 := ⟨4000 * t.val + r.val, by omega⟩

/-- The array after the region, as a function of the arrays it finds: the source rows `A0`, the destination rows `A1`,
    the transposed halves `A2`, `A3` of the first weight matrix, the bias row `A4`, the second weight row `A5`, the last
    bias `A6`. -/
def outArr (A0 A1 : S500000x256.Idx → EReal) (A2 A3 : S256x512.Idx → EReal) (A4 A5 : S1x512.Idx → EReal) (A6 : S1x1.Idx → EReal) :
    S125x1x4000.Idx → EReal :=
  fun i => (∑ j : Fin 512, A5 (ix2 (0 : Fin 1) j) * max ((∑ k : Fin 256, A0 (ix2 (edgeOf (i 0) (i 2)) k) * A2 (ix2 k j)
      + ∑ k : Fin 256, A1 (ix2 (edgeOf (i 0) (i 2)) k) * A3 (ix2 k j)) + A4 (ix2 (0 : Fin 1) j)) 0) + A6 (ix2 (0 : Fin 1) (0 : Fin 1))

theorem outArr_apply (A0 A1 : S500000x256.Idx → EReal) (A2 A3 : S256x512.Idx → EReal) (A4 A5 : S1x512.Idx → EReal) (A6 : S1x1.Idx → EReal)
    (t : Fin 125) (z : Fin 1) (r : Fin 4000) :
    outArr A0 A1 A2 A3 A4 A5 A6 (ix3 t z r)
      = (∑ j : Fin 512, A5 (ix2 (0 : Fin 1) j) * max ((∑ k : Fin 256, A0 (ix2 (edgeOf t r) k) * A2 (ix2 k j)
      + ∑ k : Fin 256, A1 (ix2 (edgeOf t r) k) * A3 (ix2 k j)) + A4 (ix2 (0 : Fin 1) j)) 0) + A6 (ix2 (0 : Fin 1) (0 : Fin 1)) := rfl

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a number below 125. -/
def pt (t : Fin cfg0.N) : Fin 125 := Fin.cast N_0 t

/-- The printed index maps, decided over the grid: the two row windows and the output move one block per point along
    their first axis; every other window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-! ## Each window's block, read at an index -/

/-- Row `p` of the source block at point `t` is row 4000 t + p of the source rows. -/
theorem blk0 (c : Dev nD) (t : Fin cfg0.N) (p : Fin 4000) (q : Fin 256) :
    (iblk m c 0 t : S4000x256.Idx → EReal) (ix2 p q) = (V m c main_v7 : S500000x256.Idx → EReal) (ix2 (edgeOf (pt t) p) q) := by
  obtain ⟨e00, e01, e10, e11, e20, e21, e30, e31, e40, e41, e50, e51, e60, e61, e70, e71, e72⟩ := idx_facts t
  unfold iblk
  rw [View.read_apply]
  show V m c main_v7 _ = V m c main_v7 _
  congr 1
  funext a
  apply Fin.ext
  match a with
  | ⟨0, _⟩ => show win0_0.index t (0 : Fin 2) * 4000 + 1 * p.val = 4000 * t.val + p.val; rw [e00]; omega
  | ⟨1, _⟩ => show win0_0.index t (1 : Fin 2) * 256 + 1 * q.val = q.val; rw [e01]; omega

/-- Row `p` of the destination block at point `t` is row 4000 t + p of the destination rows. -/
theorem blk1 (c : Dev nD) (t : Fin cfg0.N) (p : Fin 4000) (q : Fin 256) :
    (iblk m c 1 t : S4000x256.Idx → EReal) (ix2 p q) = (V m c main_v14 : S500000x256.Idx → EReal) (ix2 (edgeOf (pt t) p) q) := by
  obtain ⟨e00, e01, e10, e11, e20, e21, e30, e31, e40, e41, e50, e51, e60, e61, e70, e71, e72⟩ := idx_facts t
  unfold iblk
  rw [View.read_apply]
  show V m c main_v14 _ = V m c main_v14 _
  congr 1
  funext a
  apply Fin.ext
  match a with
  | ⟨0, _⟩ => show win0_1.index t (0 : Fin 2) * 4000 + 1 * p.val = 4000 * t.val + p.val; rw [e10]; omega
  | ⟨1, _⟩ => show win0_1.index t (1 : Fin 2) * 256 + 1 * q.val = q.val; rw [e11]; omega

/-- The left half of the weights is handed over whole. -/
theorem blk2 (c : Dev nD) (t : Fin cfg0.N) (p : Fin 256) (q : Fin 512) :
    (iblk m c 2 t : S256x512.Idx → EReal) (ix2 p q) = (V m c main_v18 : S256x512.Idx → EReal) (ix2 p q) := by
  obtain ⟨e00, e01, e10, e11, e20, e21, e30, e31, e40, e41, e50, e51, e60, e61, e70, e71, e72⟩ := idx_facts t
  unfold iblk
  rw [View.read_apply]
  show V m c main_v18 _ = V m c main_v18 _
  congr 1
  funext a
  apply Fin.ext
  match a with
  | ⟨0, _⟩ => show win0_2.index t (0 : Fin 2) * 256 + 1 * p.val = p.val; rw [e20]; omega
  | ⟨1, _⟩ => show win0_2.index t (1 : Fin 2) * 512 + 1 * q.val = q.val; rw [e21]; omega

/-- The right half of the weights is handed over whole. -/
theorem blk3 (c : Dev nD) (t : Fin cfg0.N) (p : Fin 256) (q : Fin 512) :
    (iblk m c 3 t : S256x512.Idx → EReal) (ix2 p q) = (V m c main_v20 : S256x512.Idx → EReal) (ix2 p q) := by
  obtain ⟨e00, e01, e10, e11, e20, e21, e30, e31, e40, e41, e50, e51, e60, e61, e70, e71, e72⟩ := idx_facts t
  unfold iblk
  rw [View.read_apply]
  show V m c main_v20 _ = V m c main_v20 _
  congr 1
  funext a
  apply Fin.ext
  match a with
  | ⟨0, _⟩ => show win0_3.index t (0 : Fin 2) * 256 + 1 * p.val = p.val; rw [e30]; omega
  | ⟨1, _⟩ => show win0_3.index t (1 : Fin 2) * 512 + 1 * q.val = q.val; rw [e31]; omega

/-- The bias row is handed over whole. -/
theorem blk4 (c : Dev nD) (t : Fin cfg0.N) (p : Fin 1) (q : Fin 512) :
    (iblk m c 4 t : S1x512.Idx → EReal) (ix2 p q) = (V m c main_v22 : S1x512.Idx → EReal) (ix2 p q) := by
  obtain ⟨e00, e01, e10, e11, e20, e21, e30, e31, e40, e41, e50, e51, e60, e61, e70, e71, e72⟩ := idx_facts t
  unfold iblk
  rw [View.read_apply]
  show V m c main_v22 _ = V m c main_v22 _
  congr 1
  funext a
  apply Fin.ext
  match a with
  | ⟨0, _⟩ => show win0_4.index t (0 : Fin 2) * 1 + 1 * p.val = p.val; rw [e40]; omega
  | ⟨1, _⟩ => show win0_4.index t (1 : Fin 2) * 512 + 1 * q.val = q.val; rw [e41]; omega

/-- The second weight row is handed over whole. -/
theorem blk5 (c : Dev nD) (t : Fin cfg0.N) (p : Fin 1) (q : Fin 512) :
    (iblk m c 5 t : S1x512.Idx → EReal) (ix2 p q) = (V m c main_v21 : S1x512.Idx → EReal) (ix2 p q) := by
  obtain ⟨e00, e01, e10, e11, e20, e21, e30, e31, e40, e41, e50, e51, e60, e61, e70, e71, e72⟩ := idx_facts t
  unfold iblk
  rw [View.read_apply]
  show V m c main_v21 _ = V m c main_v21 _
  congr 1
  funext a
  apply Fin.ext
  match a with
  | ⟨0, _⟩ => show win0_5.index t (0 : Fin 2) * 1 + 1 * p.val = p.val; rw [e50]; omega
  | ⟨1, _⟩ => show win0_5.index t (1 : Fin 2) * 512 + 1 * q.val = q.val; rw [e51]; omega

/-- The last bias is handed over whole. -/
theorem blk6 (c : Dev nD) (t : Fin cfg0.N) (p : Fin 1) (q : Fin 1) :
    (iblk m c 6 t : S1x1.Idx → EReal) (ix2 p q) = (V m c main_v23 : S1x1.Idx → EReal) (ix2 p q) := by
  obtain ⟨e00, e01, e10, e11, e20, e21, e30, e31, e40, e41, e50, e51, e60, e61, e70, e71, e72⟩ := idx_facts t
  unfold iblk
  rw [View.read_apply]
  show V m c main_v23 _ = V m c main_v23 _
  congr 1
  funext a
  apply Fin.ext
  match a with
  | ⟨0, _⟩ => show win0_6.index t (0 : Fin 2) * 1 + 1 * p.val = p.val; rw [e60]; omega
  | ⟨1, _⟩ => show win0_6.index t (1 : Fin 2) * 1 + 1 * q.val = q.val; rw [e61]; omega

/-! ## What a point writes back -/

/-- Entry `(u, v, r)` of point `t`'s output block sits at `(t, 0, r)` in the array. -/
theorem emb_out (t : Fin cfg0.N) (u v : Fin 1) (r : Fin 4000) :
    ((cfg0.win 7).blk t).view.emb (ix3 u v r) = (ix3 (pt t) (0 : Fin 1) r : S125x1x4000.Idx) := by
  obtain ⟨e00, e01, e10, e11, e20, e21, e30, e31, e40, e41, e50, e51, e60, e61, e70, e71, e72⟩ := idx_facts t
  funext a
  apply Fin.ext
  match a with
  | ⟨0, _⟩ => show win0_7.index t (0 : Fin 3) * 1 + 1 * u.val = t.val; rw [e70]; omega
  | ⟨1, _⟩ => show win0_7.index t (1 : Fin 3) * 1 + 1 * v.val = 0; rw [e71]; omega
  | ⟨2, _⟩ => show win0_7.index t (2 : Fin 3) * 4000 + 1 * r.val = r.val; rw [e72]; omega

/-- WHAT POINT `t` WRITES BACK is block `t` of `outArr` of the arrays the region finds. -/
theorem flushed_eq (c : Dev nD) (t : Fin cfg0.N) :
    (dats m 0 c).flushed 7 t = ((cfg0.win 7).blk t).view.read (Elt Ideal)
      (outArr (V m c main_v7) (V m c main_v14) (V m c main_v18) (V m c main_v20) (V m c main_v22) (V m c main_v21) (V m c main_v23)) := by
  show (cfg0.win 7).cut (grid0.coords t) ((dats m 0 c).after 7 t) = _
  rw [after0_7]
  unfold out0_7
  rw [View.canon_unit_zero hz3]
  simp only [View.ld_unit_zero (S := S4000x256) hz2, View.ld_unit_zero (S := S256x512) hz2, View.ld_unit_zero (S := S1x512) hz2,
    View.ld_unit_zero (S := S1x1) hz2]
  funext y
  obtain ⟨u, v, r, rfl⟩ : ∃ (u v : Fin 1) (r : Fin 4000), y = ix3 u v r := ⟨y 0, y 1, y 2, eq_ix3 y⟩
  rw [View.read_apply, emb_out, outArr_apply]
  refine (Body.pay_apply (iblk m c 0 t) (iblk m c 1 t) (iblk m c 2 t) (iblk m c 3 t) (iblk m c 4 t) (iblk m c 5 t) (iblk m c 6 t) u v r).trans ?_
  simp only [blk0 m c t, blk1 m c t, blk2 m c t, blk3 m c t, blk4 m c t, blk5 m c t, blk6 m c t]
  rfl

/-! ## The blocks cover the array -/

/-- An index of the array is in point `t`'s block iff each coordinate is in the block's range on its axis. -/
theorem mem_blk (t : Fin cfg0.N) (i : S125x1x4000.Idx) :
    i ∈ ((cfg0.win 7).blk t).view.set ↔ ∀ a : Fin 3, win0_7.index t a * S1x1x4000.size a ≤ (i a).val ∧ (i a).val < win0_7.index t a * S1x1x4000.size a + S1x1x4000.size a := by
  show i ∈ ((View.whole main_v24).slice (win0_7.rect t)).set ↔ _
  rw [View.set_slice_whole, Rect.mem_set_unit]
  exact Iff.rfl

/-- Index `(t, 0, r)` is in the block of point `t`. -/
theorem cover (i : S125x1x4000.Idx) : ∃ t : Fin cfg0.N, (cfg0.win 7).flush t = true ∧ i ∈ ((cfg0.win 7).blk t).view.set := by
  have h0 : (i 0).val < 125 := (i 0).isLt
  have h1 : (i 1).val < 1 := (i 1).isLt
  have h2 : (i 2).val < 4000 := (i 2).isLt
  refine ⟨Fin.cast N_0.symm ⟨(i 0).val, h0⟩, flush0_7 _, ?_⟩
  obtain ⟨e00, e01, e10, e11, e20, e21, e30, e31, e40, e41, e50, e51, e60, e61, e70, e71, e72⟩ := idx_facts (Fin.cast N_0.symm ⟨(i 0).val, h0⟩)
  have e70' : win0_7.index (Fin.cast N_0.symm ⟨(i 0).val, h0⟩) (0 : Fin 3) = (i 0).val := e70
  rw [mem_blk]
  intro a
  match a with
  | ⟨0, _⟩ =>
    show win0_7.index (Fin.cast N_0.symm ⟨(i 0).val, h0⟩) (0 : Fin 3) * 1 ≤ (i 0).val ∧ (i 0).val < win0_7.index (Fin.cast N_0.symm ⟨(i 0).val, h0⟩) (0 : Fin 3) * 1 + 1
    rw [e70']; omega
  | ⟨1, _⟩ =>
    show win0_7.index (Fin.cast N_0.symm ⟨(i 0).val, h0⟩) (1 : Fin 3) * 1 ≤ (i 1).val ∧ (i 1).val < win0_7.index (Fin.cast N_0.symm ⟨(i 0).val, h0⟩) (1 : Fin 3) * 1 + 1
    rw [e71]; omega
  | ⟨2, _⟩ =>
    show win0_7.index (Fin.cast N_0.symm ⟨(i 0).val, h0⟩) (2 : Fin 3) * 4000 ≤ (i 2).val ∧ (i 2).val < win0_7.index (Fin.cast N_0.symm ⟨(i 0).val, h0⟩) (2 : Fin 3) * 4000 + 4000
    rw [e72]; omega

/-- THE ARRAY AFTER THE RUN is `outArr` of the arrays the region finds. -/
theorem final (c : Dev nD) :
    (dats m 0 c).arrAt 7 cfg0.N
      = outArr (V m c main_v7) (V m c main_v14) (V m c main_v18) (V m c main_v20) (V m c main_v22) (V m c main_v21) (V m c main_v23) :=
  (dats m 0 c).arrAt_eq_of_cover 7 _ (fun t _ => flushed_eq m c t) cover

end Cert.KernelIdeal.Blocks

end
-- ==== Proof.HostEntry.lean ====
/-
  WHAT THE REGION FINDS IN ITS SEVEN INPUT ARRAYS.

  Before the region the program prepares its operands from the arguments: the node table (its float format changed,
  which is the identity on extended reals) gathered at the source indices and at the destination indices, a negative
  index first moved up by the table's length; the left and the right 256 columns of the first weight matrix, each
  transposed; the second weight row; the two biases recast as a 1 × 512 row and a 1 × 1 entry. Each lemma reads one of
  these arrays off the run of the host operations.
-/
import proofs.«129679_j84121229460231_2_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- An index array as the gather takes it: a negative index moved up by 100000, the result laid out as a column. -/
def wrapped (x : (⟨S500000, .i32⟩ : BufTy).Contents (Elt F)) : (⟨S500000x1, .i32⟩ : BufTy).Contents (Elt F) :=
  broadcastInDim S500000x1 ![0] bcast_S500000_S500000x1_0
    (select (cmpi .slt x (broadcastInDim S500000 ![] bcast_S_S500000 (constantI S_ 32 0#32)))
      (addi x (broadcastInDim S500000 ![] bcast_S_S500000 (constantI S_ 32 100000#32))) x)

/-- The rows of the node table at the indices `x`. -/
def rowsAt (h : (⟨S100000x256, .f32⟩ : BufTy).Contents (Elt F)) (x : (⟨S500000, .i32⟩ : BufTy).Contents (Elt F)) :
    (⟨S500000x256, .bf16⟩ : BufTy).Contents (Elt F) :=
  Host.gather gather_S100000x256_S500000x1_S500000x256_1_0_n_n_0_1_1256 (truncf .bf16 h bitsLt_bf16_f32) (wrapped x)

variable (m : (ℓ : Loc nD τ sig) → Buf (Elt F) ℓ)

/-- The source rows. -/
theorem src_rows (c : Dev nD) :
    (V m c main_v7 : (⟨S500000x256, .bf16⟩ : BufTy).Contents (Elt F))
      = rowsAt (m ((c : Thread nD τ).loc main_arg0)) (m ((c : Thread nD τ).loc main_arg1)) := by
  show StableHlo.after hostOps0 (fun b => m (c, b)) (Proc.devRef .tc main_v7) = _
  after_results <;> rfl

/-- The destination rows. -/
theorem dst_rows (c : Dev nD) :
    (V m c main_v14 : (⟨S500000x256, .bf16⟩ : BufTy).Contents (Elt F))
      = rowsAt (m ((c : Thread nD τ).loc main_arg0)) (m ((c : Thread nD τ).loc main_arg2)) := by
  show StableHlo.after hostOps0 (fun b => m (c, b)) (Proc.devRef .tc main_v14) = _
  after_results <;> rfl

/-- The left 256 columns of the first weight matrix, transposed. -/
theorem left_half (c : Dev nD) :
    (V m c main_v18 : (⟨S256x512, .bf16⟩ : BufTy).Contents (Elt F))
      = transpose S256x512 [1, 0] (truncf .bf16 (extractStridedSlice S512x256 ![0, 0] (m ((c : Thread nD τ).loc main_arg3)) slices_S512x512_S512x256_0_0) bitsLt_bf16_f32) transposes_S512x256_S256x512_1_0 := by
  show StableHlo.after hostOps0 (fun b => m (c, b)) (Proc.devRef .tc main_v18) = _
  after_results <;> rfl

/-- The right 256 columns, transposed. -/
theorem right_half (c : Dev nD) :
    (V m c main_v20 : (⟨S256x512, .bf16⟩ : BufTy).Contents (Elt F))
      = transpose S256x512 [1, 0] (truncf .bf16 (extractStridedSlice S512x256 ![0, 256] (m ((c : Thread nD τ).loc main_arg3)) slices_S512x512_S512x256_0_256) bitsLt_bf16_f32) transposes_S512x256_S256x512_1_0 := by
  show StableHlo.after hostOps0 (fun b => m (c, b)) (Proc.devRef .tc main_v20) = _
  after_results <;> rfl

/-- The first bias as a row. -/
theorem bias_row (c : Dev nD) :
    (V m c main_v22 : (⟨S1x512, .f32⟩ : BufTy).Contents (Elt F))
      = shapeCast S1x512 (m ((c : Thread nD τ).loc main_arg4)) shapeCasts_S512_S1x512 := by
  show StableHlo.after hostOps0 (fun b => m (c, b)) (Proc.devRef .tc main_v22) = _
  after_results <;> rfl

/-- The second weight row. -/
theorem weight_row (c : Dev nD) :
    (V m c main_v21 : (⟨S1x512, .bf16⟩ : BufTy).Contents (Elt F))
      = truncf .bf16 (m ((c : Thread nD τ).loc main_arg5)) bitsLt_bf16_f32 := by
  show StableHlo.after hostOps0 (fun b => m (c, b)) (Proc.devRef .tc main_v21) = _
  after_results <;> rfl

/-- The second bias as a 1 × 1 entry. -/
theorem bias_entry (c : Dev nD) :
    (V m c main_v23 : (⟨S1x1, .f32⟩ : BufTy).Contents (Elt F))
      = shapeCast S1x1 (m ((c : Thread nD τ).loc main_arg6)) shapeCasts_S1_S1x1 := by
  show StableHlo.after hostOps0 (fun b => m (c, b)) (Proc.devRef .tc main_v23) = _
  after_results <;> rfl

end Cert.KernelIdeal.Entry

end
-- ==== Proof.KernelRun.lean ====
/-
  THE KERNEL COMPUTES THE EDGE SCORES.

  The array the region leaves holds, at `(t, 0, r)`, what the body computes from row 4000 t + r of the source and of
  the destination rows (BlockScore). The transposed left half of the first weight matrix at `(k, j)` is the matrix
  at `(j, k)`, the right half at `(k, j)` the matrix at `(j, 256 + k)`; the bias row, the second weight row and the
  last bias are the arguments recast. So that entry is the score of edge 4000 t + r, and the final reshape to one axis
  of 500000 puts it at position 4000 t + r: the result is the array of edge scores of the two row arrays.
-/
import proofs.«129679_j84121229460231_2_alg».proof.Proof.Gen.KernelIdeal.Frame
import proofs.«129679_j84121229460231_2_alg».proof.Proof.BlockScore
import proofs.«129679_j84121229460231_2_alg».proof.Proof.HostEntry
import proofs.«129679_j84121229460231_2_alg».proof.Proof.EdgeScore
import Idealize.ShloMosaic.Lib.StableHlo.Run
import Idealize.ShloMosaic.Lib.ValueLayout
import Idealize.ShloMosaic.Lib.Pipeline.Value

noncomputable section

open scoped BigOperators

namespace Cert.KernelIdeal.Scores

open Cert.KernelIdeal Cert.KernelIdeal.Gen Idealize.ShloMosaic Idealize.ShloMosaic.TcCoe Idealize.SL.Sem Idealize.ShloMosaic.StableHlo
open Idealize.ShloMosaic.ValueIdx EdgeScore

variable (m : (ℓ : Loc nD τ sig) → Buf (Elt Ideal) ℓ) (ρ : Dev nD → PrngReg)

/-! ## The prepared weights, read at an index -/

theorem left_half_apply (c : Dev nD) (k : Fin 256) (j : Fin 512) :
    (V m c main_v18 : S256x512.Idx → EReal) (ix2 k j) = ((m ((c : Thread nD τ).loc main_arg3)) : S512x512.Idx → EReal) (ix2 j (lo k)) := by
  rw [Entry.left_half, transpose_ix2_apply, truncf_apply]
  exact extractStridedSlice_apply _ _ _ (ix2 j k) (ix2 j (lo k)) fun a => by
    match a with
    | ⟨0, _⟩ => exact (Nat.zero_add _).symm
    | ⟨1, _⟩ => exact (Nat.zero_add _).symm

theorem right_half_apply (c : Dev nD) (k : Fin 256) (j : Fin 512) :
    (V m c main_v20 : S256x512.Idx → EReal) (ix2 k j) = ((m ((c : Thread nD τ).loc main_arg3)) : S512x512.Idx → EReal) (ix2 j (hi k)) := by
  rw [Entry.right_half, transpose_ix2_apply, truncf_apply]
  exact extractStridedSlice_apply _ _ _ (ix2 j k) (ix2 j (hi k)) fun a => by
    match a with
    | ⟨0, _⟩ => exact (Nat.zero_add _).symm
    | ⟨1, _⟩ => rfl

theorem bias_row_apply (c : Dev nD) (j : Fin 512) :
    (V m c main_v22 : S1x512.Idx → EReal) (ix2 (0 : Fin 1) j) = ((m ((c : Thread nD τ).loc main_arg4)) : S512.Idx → EReal) (ix1 j) := by
  rw [Entry.bias_row, shapeCast_a_1a_apply]

theorem weight_row_apply (c : Dev nD) (j : Fin 512) :
    (V m c main_v21 : S1x512.Idx → EReal) (ix2 (0 : Fin 1) j) = ((m ((c : Thread nD τ).loc main_arg5)) : S1x512.Idx → EReal) (ix2 (0 : Fin 1) j) := by
  rw [Entry.weight_row, truncf_apply]

theorem bias_entry_apply (c : Dev nD) :
    (V m c main_v23 : S1x1.Idx → EReal) (ix2 (0 : Fin 1) (0 : Fin 1)) = ((m ((c : Thread nD τ).loc main_arg6)) : S1.Idx → EReal) (ix1 (0 : Fin 1)) := by
  rw [Entry.bias_entry, shapeCast_a_1a_apply]

/-! ## The result -/

/-- The scores of the 500000 edges, from the source and destination rows the region finds and the weight arguments. -/
def result (c : Dev nD) : S500000.Idx → EReal :=
  scores (V m c main_v7) (V m c main_v14) (m ((c : Thread nD τ).loc main_arg3)) (m ((c : Thread nD τ).loc main_arg4)) (m ((c : Thread nD τ).loc main_arg5)) (m ((c : Thread nD τ).loc main_arg6))

/-- The array the region leaves, reshaped to one axis, is the array of edge scores: position `e` of the reshaped array
    is entry `(e / 4000, 0, e % 4000)`, which scores edge 4000 (e / 4000) + e % 4000 = e. -/
theorem reshaped (c : Dev nD) :
    shapeCast S500000 (Blocks.outArr (V m c main_v7) (V m c main_v14) (V m c main_v18) (V m c main_v20) (V m c main_v22) (V m c main_v21) (V m c main_v23)) shapeCasts_S125x1x4000_S500000 = result m c := by
  funext i
  obtain ⟨e, rfl⟩ : ∃ e : Fin 500000, i = ix1 e := ⟨i 0, eq_ix1 i⟩
  have hq : e.val / 4000 < 125 := by omega
  have hr : e.val % 4000 < 4000 := Nat.mod_lt _ (by decide)
  refine (shapeCast_apply _ shapeCasts_S125x1x4000_S500000 (ix1 e)
    (ix3 (⟨e.val / 4000, hq⟩ : Fin 125) (0 : Fin 1) (⟨e.val % 4000, hr⟩ : Fin 4000)) ?_).trans ?_
  · rw [Shape.rowMajor_val_three, Shape.rowMajor_val_one]
    show (e.val / 4000 * 1 + 0) * 4000 + e.val % 4000 = e.val
    omega
  · have he : Blocks.edgeOf ⟨e.val / 4000, hq⟩ ⟨e.val % 4000, hr⟩ = e :=
      Fin.ext (by show 4000 * (e.val / 4000) + e.val % 4000 = e.val; omega)
    unfold result
    rw [Blocks.outArr_apply, scores_apply, he]
    unfold score EdgeScore.hidden
    refine congrArg₂ (· + ·) (Finset.sum_congr rfl fun j _ => ?_) (bias_entry_apply m c)
    refine congrArg₂ (· * ·) (weight_row_apply m c j) (congrArg (max · 0) ?_)
    refine congrArg₂ (· + ·) (congrArg₂ (· + ·) (Finset.sum_congr rfl fun k _ => ?_) (Finset.sum_congr rfl fun k _ => ?_))
      (bias_row_apply m c j)
    · rw [left_half_apply m c k j]
    · rw [right_half_apply m c k j]

/-- The program's result buffer after the lines that follow the region: the region's array, reshaped. -/
theorem tail_result (c : Dev nD) :
    Pipeline.afterTail₀ cfgs (dats m) 0 (V0 m) [hostOps1] c main_v25
      = shapeCast S500000 ((dats m 0 c).arrAt 7 cfg0.N) shapeCasts_S125x1x4000_S500000 := by
  unfold Pipeline.afterTail₀
  show StableHlo.after hostOps1 _ (Proc.devRef .tc main_v25) = _
  after_results
  exact congrArg (fun x => shapeCast S500000 x shapeCasts_S125x1x4000_S500000)
    (Pipeline.withArrays_arr spec0 launch0.win.arr_inj c (V0 m c) (fun w => (dats m 0 c).arrAt w cfg0.N) 7)

/-- THE RUN, READ: every weakly fair execution ends with the result buffer at the edge scores and the arguments as
    launched. -/
theorem run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v25 (Pipeline.mem_restRefs_of main_v25 (by decide) (by decide))).trans
        ((tail_result m c).trans ((congrArg (fun x => shapeCast S500000 x shapeCasts_S125x1x4000_S500000) (Blocks.final m c)).trans
          (reshaped m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Scores

end
-- ==== Proof.lean ====
/-
  THE EDGE SCORES OF A GRAPH, BY A KERNEL AND BY THE PLAIN FORMULA: both programs compute, on the extended reals, the same
  array of 500000 numbers.

  Every edge has a source and a destination node; each node has a row of 256 features. The edge's score is a two-layer
  perceptron of the two rows joined: hidden unit j is the positive part of ⟨u ‖ v, W1 j⟩ + b1 j, the score is
  ∑ j, W2 j · hidden j + b2 (Proof/EdgeScore.lean).

  The reference gathers the two rows of every edge, joins them, and computes exactly that, one inner product over 512
  columns per hidden unit (Proof/RefScore.lean, over the generated reading of its operations). The kernel never joins
  the rows: it splits W1 into its left and right 256 columns and adds the two half inner products, 4000 edges per grid
  point (Proof/BodyScore.lean: what the body stores; Proof/HostEntry.lean: what the arrays handed to it hold;
  Proof/BlockScore.lean: the 125 blocks written back are ONE array; Proof/KernelRun.lean: that array, reshaped, is the array of
  scores). A sum over 512 columns is the sum over the lower 256 plus the sum over the upper 256, and a product commutes:
  both hold for all extended reals, so the precondition (finite inputs) is never opened. The gathered rows are the same
  array on both sides — the same gather of the same table at the same indices, the kernel's change of float format
  being the identity on extended reals — and are never read.

  The three programs' runs (termination, no fault, arguments unchanged) are the generated frame certificates of the
  kernel and of its idealization, and the reference's generated run. The idealization rewrote nothing, so it preserves
  the kernel trivially.
-/
import proofs.«129679_j84121229460231_2_alg».proof.Defs
import proofs.«129679_j84121229460231_2_alg».proof.Proof.Gen.Kernel
import proofs.«129679_j84121229460231_2_alg».proof.Proof.Gen.Kernel.Frame
import proofs.«129679_j84121229460231_2_alg».proof.Proof.Gen.KernelIdeal
import proofs.«129679_j84121229460231_2_alg».proof.Proof.Gen.KernelIdeal.Frame
import proofs.«129679_j84121229460231_2_alg».proof.Proof.Gen.ReferenceIdeal
import proofs.«129679_j84121229460231_2_alg».proof.Proof.Gen.ReferenceIdeal.Run
import proofs.«129679_j84121229460231_2_alg».proof.Proof.Gen.ReferenceIdeal.Read
import proofs.«129679_j84121229460231_2_alg».proof.Proof.Gen.Pre_finite_inputs
import proofs.«129679_j84121229460231_2_alg».proof.Proof.RefScore
import proofs.«129679_j84121229460231_2_alg».proof.Proof.KernelRun

noncomputable section

namespace Cert.Proof

open Idealize.ShloMosaic Idealize.SL.Sem

/-- The rows the reference gathers are the rows the kernel's program gathers: the same gather of the same table at
    the same indices (a negative index moved up by the table's length on both sides), the kernel's narrowing of the
    table's float format being the identity on extended reals. -/
theorem src_rows_agree (h : (⟨Cert.ReferenceIdeal.S100000x256, .f32⟩ : BufTy).Contents (Elt Ideal))
    (x : (⟨Cert.ReferenceIdeal.S500000, .i32⟩ : BufTy).Contents (Elt Ideal)) :
    Cert.ReferenceIdeal.Read.val_main_v6 (F := Ideal) h x = Cert.KernelIdeal.Entry.rowsAt (F := Ideal) h x := rfl

theorem dst_rows_agree (h : (⟨Cert.ReferenceIdeal.S100000x256, .f32⟩ : BufTy).Contents (Elt Ideal))
    (x : (⟨Cert.ReferenceIdeal.S500000, .i32⟩ : BufTy).Contents (Elt Ideal)) :
    Cert.ReferenceIdeal.Read.val_main_v13 (F := Ideal) h x = Cert.KernelIdeal.Entry.rowsAt (F := Ideal) h x := rfl

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result buffer at the edge scores of the SAME two row arrays and the same weights. -/
theorem algebraic : Cert.algebraic_KernelIdeal_ReferenceIdeal := by
  intro m ρ m' ρ' _ hagree
  refine ⟨Cert.KernelIdeal.Scores.result m, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  refine (Cert.ReferenceIdeal.Read.val_main_v24_eq (F := Ideal) _ _ _ _ _ _ _).trans ?_
  rw [Cert.ReferenceIdeal.EdgeRead.result_eq, src_rows_agree, dst_rows_agree, a0, a1, a2, a3, a4, a5, a6]
  unfold Cert.KernelIdeal.Scores.result
  rw [Cert.KernelIdeal.Entry.src_rows m c, Cert.KernelIdeal.Entry.dst_rows m c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
